-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x8x512x512 : Shape := ⟨4, ![16, 8, 512, 512]⟩
abbrev S_ : Shape := ⟨0, ![]⟩

class Facts : Prop where
  bcast_S_S16x8x512x512 : S_.BroadcastsInDim S16x8x512x512 (![] : Fin 0 → Fin S16x8x512x512.rank)
  reducesTo_S16x8x512x512_S_d0_1_2_3 : S16x8x512x512.ReducesTo [0, 1, 2, 3] S_
  h_S_ : 0 < S_.numel

variable [Facts]

def fn {F : FTy → Type} [FloatOps F] (main_arg0 : FVec F S16x8x512x512 .f32) (main_arg1 : FVec F S16x8x512x512 .f32) : IVec S_ 1 :=
  let main_v0 : FVec F S16x8x512x512 .f32 := Host.absf main_arg0
  let main_cst : FVec F S_ .f32 := constant S_ .f32 0x7F800000#32
  let main_v1 : FVec F S16x8x512x512 .f32 := broadcastInDim S16x8x512x512 ![] bcast_S_S16x8x512x512 main_cst
  let main_v2 : IVec S16x8x512x512 1 := cmpf .olt main_v0 main_v1
  let main_c : IVec S_ 1 := constantI S_ 1 1#1
  let main_v3 : IVec S_ 1 := (fun x v => Host.reduce IntOp.andi x v reducesTo_S16x8x512x512_S_d0_1_2_3 h_S_) main_v2 main_c
  let main_v4 : FVec F S16x8x512x512 .f32 := Host.absf main_arg1
  let main_cst_0 : FVec F S_ .f32 := constant S_ .f32 0x7F800000#32
  let main_v5 : FVec F S16x8x512x512 .f32 := broadcastInDim S16x8x512x512 ![] bcast_S_S16x8x512x512 main_cst_0
  let main_v6 : IVec S16x8x512x512 1 := cmpf .olt main_v4 main_v5
  let main_c_1 : IVec S_ 1 := constantI S_ 1 1#1
  let main_v7 : IVec S_ 1 := (fun x v => Host.reduce IntOp.andi x v reducesTo_S16x8x512x512_S_d0_1_2_3 h_S_) main_v6 main_c_1
  let main_v8 : IVec S_ 1 := andi main_v3 main_v7
  main_v8
-- ==== Kernel.lean ====
abbrev S16x8x512x512 : Shape := ⟨4, ![16, 8, 512, 512]⟩
abbrev S2x32768x512 : Shape := ⟨3, ![2, 32768, 512]⟩
abbrev S2x1x128 : Shape := ⟨3, ![2, 1, 128]⟩
abbrev S1x2048x512 : Shape := ⟨3, ![1, 2048, 512]⟩
abbrev S1x1x128 : Shape := ⟨3, ![1, 1, 128]⟩
abbrev S1x1 : Shape := ⟨2, ![1, 1]⟩
abbrev S2048x512 : Shape := ⟨2, ![2048, 512]⟩
abbrev S2048 : Shape := ⟨1, ![2048]⟩
abbrev S2048x1 : Shape := ⟨2, ![2048, 1]⟩
abbrev S1 : Shape := ⟨1, ![1]⟩
abbrev S1x128 : Shape := ⟨2, ![1, 128]⟩
abbrev S2x1x1 : Shape := ⟨3, ![2, 1, 1]⟩
abbrev S2 : Shape := ⟨1, ![2]⟩
abbrev S_ : Shape := ⟨0, ![]⟩

abbrev nBuf : Space → Nat
  | .hbm => 9
  | .vmem => 7
  | .smem => 0
  | _ => 0

abbrev bufTy : (tb : Table) → Fin (tcTables nBuf tb) → BufTy
  | .hbm, ⟨0, _⟩ => ⟨S16x8x512x512, .f32⟩
  | .hbm, ⟨1, _⟩ => ⟨S16x8x512x512, .f32⟩
  | .hbm, ⟨2, _⟩ => ⟨S2x32768x512, .f32⟩
  | .hbm, ⟨3, _⟩ => ⟨S2x32768x512, .f32⟩
  | .hbm, ⟨4, _⟩ => ⟨S2x1x128, .f32⟩
  | .hbm, ⟨5, _⟩ => ⟨S2x1x1, .f32⟩
  | .hbm, ⟨6, _⟩ => ⟨S2, .f32⟩
  | .hbm, ⟨7, _⟩ => ⟨S_, .f32⟩
  | .hbm, ⟨8, _⟩ => ⟨S_, .f32⟩
  | .local _ .vmem, ⟨0, _⟩ => ⟨S1x2048x512, .f32⟩
  | .local _ .vmem, ⟨1, _⟩ => ⟨S1x2048x512, .f32⟩
  | .local _ .vmem, ⟨2, _⟩ => ⟨S1x2048x512, .f32⟩
  | .local _ .vmem, ⟨3, _⟩ => ⟨S1x2048x512, .f32⟩
  | .local _ .vmem, ⟨4, _⟩ => ⟨S1x1x128, .f32⟩
  | .local _ .vmem, ⟨5, _⟩ => ⟨S1x1x128, .f32⟩
  | .local _ .vmem, ⟨6, _⟩ => ⟨S1x1, .f32⟩
  | _, _ => ⟨S16x8x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v21 : BitVec 1 := Scalar.cmpi .eq arg1 c15_i32
  let v22 : BitVec 32 := Scalar.extui v21
  let c0_i32_12 : BitVec 32 := 0#32
  let v23 : BitVec 1 := Scalar.cmpi .ne v22 c0_i32_12
  v23

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S16x8x512x512_S2x32768x512 : S16x8x512x512.ShapeCasts S2x32768x512
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  reduces_S2048x512_S2048 : S2048x512.Reduces [1] S2048
  shapeCasts_S2048_S2048x1 : S2048.ShapeCasts S2048x1
  reduces_S2048x1_S1 : S2048x1.Reduces [0] S1
  shapeCasts_S1_S1x1 : S1.ShapeCasts S1x1
  broadcasts_S1x1_S1x128 : S1x1.Broadcasts S1x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  slices_S2x1x128_S2x1x1_0_0_0 : S2x1x128.Slices ![0, 0, 0] S2x1x1
  shapeCasts_S2x1x1_S2 : S2x1x1.ShapeCasts S2
  reducesTo_S2_S_d0 : S2.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x512.size a ≤ S2x32768x512.size a
  hwx0_0 : ∀ i : grid0.Coords, EltTy.bits .f32 = 32 ∨ (Rect.block (s := S2x32768x512) S1x2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x512.size a ≤ S2x32768x512.size a
  hwx0_1 : ∀ i : grid0.Coords, EltTy.bits .f32 = 32 ∨ (Rect.block (s := S2x32768x512) S1x2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S2x1x128.size a
  hwx0_2 : ∀ i : grid0.Coords, EltTy.bits .f32 = 32 ∨ (Rect.block (s := S2x1x128) S1x1x128.size (cc0_transform_2 i) (hinb0_2 i)).WholeWords (EltTy.packing .f32)

variable [Facts₀]

abbrev win0_0 : Pipeline.Window sig grid0 :=
  Pipeline.Window.ofSpec (Memref.whole main_v0) S1x2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16x8x512x512 : Shape := ⟨4, ![16, 8, 512, 512]⟩
abbrev S_ : Shape := ⟨0, ![]⟩
abbrev S16x8x512 : Shape := ⟨3, ![16, 8, 512]⟩
abbrev S16x8 : Shape := ⟨2, ![16, 8]⟩

abbrev nBuf : Space → Nat
  | .hbm => 19
  | .vmem => 0
  | .smem => 0
  | _ => 0

abbrev bufTy : (tb : Table) → Fin (tcTables nBuf tb) → BufTy
  | .hbm, ⟨0, _⟩ => ⟨S16x8x512x512, .f32⟩
  | .hbm, ⟨1, _⟩ => ⟨S16x8x512x512, .f32⟩
  | .hbm, ⟨2, _⟩ => ⟨S16x8x512x512, .f32⟩
  | .hbm, ⟨3, _⟩ => ⟨S_, .f32⟩
  | .hbm, ⟨4, _⟩ => ⟨S16x8x512x512, .f32⟩
  | .hbm, ⟨5, _⟩ => ⟨S16x8x512x512, .f32⟩
  | .hbm, ⟨6, _⟩ => ⟨S16x8x512x512, .f32⟩
  | .hbm, ⟨7, _⟩ => ⟨S_, .f32⟩
  | .hbm, ⟨8, _⟩ => ⟨S16x8x512x512, .f32⟩
  | .hbm, ⟨9, _⟩ => ⟨S16x8x512x512, .f32⟩
  | .hbm, ⟨10, _⟩ => ⟨S_, .f32⟩
  | .hbm, ⟨11, _⟩ => ⟨S16x8x512, .f32⟩
  | .hbm, ⟨12, _⟩ => ⟨S_, .f32⟩
  | .hbm, ⟨13, _⟩ => ⟨S16x8x512, .f32⟩
  | .hbm, ⟨14, _⟩ => ⟨S16x8x512, .f32⟩
  | .hbm, ⟨15, _⟩ => ⟨S_, .f32⟩
  | .hbm, ⟨16, _⟩ => ⟨S16x8, .f32⟩
  | .hbm, ⟨17, _⟩ => ⟨S_, .f32⟩
  | .hbm, ⟨18, _⟩ => ⟨S_, .f32⟩
  | _, _ => ⟨S16x8x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_cst_4 : Ref sig .tc := ⟨.hbm, 17, rfl⟩
abbrev main_v10 : Ref sig .tc := ⟨.hbm, 18, rfl⟩

abbrev nD : Nat := 1
abbrev τ : Topo := Topo.v7x

variable {F : FTy → Type} [FloatOps F]

class Facts₀ : Prop where
  bcast_S_S16x8x512x512 : S_.BroadcastsInDim S16x8x512x512 (![] : Fin 0 → Fin S16x8x512x512.rank)
  reducesTo_S16x8x512x512_S16x8x512_d3 : S16x8x512x512.ReducesTo [3] S16x8x512
  h_S_ : 0 < S_.numel
  bcast_S_S16x8x512 : S_.BroadcastsInDim S16x8x512 (![] : Fin 0 → Fin S16x8x512.rank)
  reducesTo_S16x8x512_S16x8_d2 : S16x8x512.ReducesTo [2] S16x8
  reducesTo_S16x8_S_d0_1 : S16x8.ReducesTo [0, 1] S_

variable [Facts₀]

class Facts : Prop extends Facts₀ where

variable [Facts]
-- ==== Proof.RowNorm.lean ====
/-
  The scalar laws that join the two programs. One program squares an entry by multiplying it with itself and takes
  the square root of a row's sum of squares; the other raises the entry's absolute value to the power two and the
  row's sum to the power one half. On a finite entry `d` the two squares are the same real `d²`, and on a finite
  non-negative sum `s` both roots are `√s`. The three float words that matter are read here, once: `2.0`,
  `0.5` and the small finite offset both programs add to a difference.
-/
import Idealize.ShloMosaic.PureOps.Ideal
import Idealize.ShloMosaic.Lib.ValueIdx

noncomputable section

namespace Cert.RowNorm

open Idealize.ShloMosaic Idealize.ShloMosaic.ValueIdx

/-- The word `0x40000000` denotes the real `2`. -/
theorem ofBits_two : Ideal.ofBits .f32 0x40000000#32 = ((2 : ℝ) : EReal) := by
  simp [Ideal.ofBits, Ideal.ieee, -EReal.coe_mul]; norm_num

/-- The word `0x3F000000` denotes the real `1/2`. -/
theorem ofBits_half : Ideal.ofBits .f32 0x3F000000#32 = ((1 / 2 : ℝ) : EReal) := by
  simp [Ideal.ofBits, Ideal.ieee, -EReal.coe_mul]; norm_num

/-- The offset both programs add to a difference is a finite real. -/
theorem ofBits_eps : ∃ e : ℝ, Ideal.ofBits .f32 0x358637BD#32 = (e : EReal) := by
  simp [Ideal.ofBits, Ideal.ieee, -EReal.coe_mul]

/-- The zero word denotes `0`. -/
theorem ofBits_zero : Ideal.ofBits .f32 0x00000000#32 = 0 := by
  simp [Ideal.ofBits, Ideal.ieee]

/-- On a finite entry, the absolute value raised to the power two is the entry times itself. -/
theorem abs_pow_two (d : ℝ) :
    Ideal.pow (max (d : EReal) (-(d : EReal))) ((2 : ℝ) : EReal) = (d : EReal) * (d : EReal) := by
  rw [← EReal.coe_neg, ← EReal.coe_strictMono.monotone.map_max, Ideal.pow_coe_coe, ← EReal.coe_mul]
  congr 1
  show (max d (-d)) ^ (2 : ℝ) = d * d
  rw [Real.rpow_two, ← abs_eq_max_neg, sq_abs, sq]

/-- On a finite non-negative sum, the power one half is the square root. -/
theorem pow_half (s : ℝ) (hs : 0 ≤ s) :
    Ideal.pow (s : EReal) ((1 / 2 : ℝ) : EReal) = Ideal.sqrt (s : EReal) := by
  rw [Ideal.pow_coe_coe, Ideal.sqrt_coe, if_neg (not_lt.mpr hs)]
  congr 1
  exact (Real.sqrt_eq_rpow s).symm

/-! ## The specification: the sum, over all 65536 rows, of each row's norm -/

/-- A [16, 8, 512, 512] array of extended reals. -/
abbrev Arr : Type := (⟨4, ![16, 8, 512, 512]⟩ : Shape).Idx → EReal

/-- The small offset both programs add to every difference. -/
def eps : EReal := Ideal.ofBits .f32 0x358637BD#32

/-- One entry's contribution to its row, written as a product: `(a - b + ε)²`. -/
def sq (a b : EReal) : EReal := (a - b + eps) * (a - b + eps)

/-- The same contribution written as a power of an absolute value: `|a - b + ε| ^ 2`. -/
def sqPow (a b : EReal) : EReal :=
  Ideal.pow (max (a - b + eps) (-(a - b + eps))) (Ideal.ofBits .f32 0x40000000#32)

/-- Entry `w` of row `ρ`, the array read as 65536 rows of 512 entries in row-major order: row `ρ` is
    `(ρ / 4096, ρ / 512 mod 8, ρ mod 512)`. -/
def entry (ρ : Fin 65536) (w : Fin 512) : (⟨4, ![16, 8, 512, 512]⟩ : Shape).Idx :=
  ix4 (⟨ρ.val / 4096, by have := ρ.isLt; omega⟩ : Fin 16) (⟨ρ.val / 512 % 8, by omega⟩ : Fin 8)
    (⟨ρ.val % 512, by omega⟩ : Fin 512) w

/-- A row's norm as a square root of a sum of products. -/
def rowSqrt (X Y : Arr) (ρ : Fin 65536) : EReal :=
  Ideal.sqrt (∑ w : Fin 512, sq (X (entry ρ w)) (Y (entry ρ w)))

/-- A row's norm as the power one half of a sum, started from the zero word, of powers. -/
def rowPow (X Y : Arr) (ρ : Fin 65536) : EReal :=
  Ideal.pow (Ideal.ofBits .f32 0x00000000#32 + ∑ w : Fin 512, sqPow (X (entry ρ w)) (Y (entry ρ w)))
    (Ideal.ofBits .f32 0x3F000000#32)

/-- A function of the rows continued by zero past the last row, so that sums may run over plain naturals. -/
def ext (f : Fin 65536 → EReal) (n : ℕ) : EReal := if h : n < 65536 then f ⟨n, h⟩ else 0

theorem ext_val (f : Fin 65536 → EReal) (ρ : Fin 65536) : ext f ρ.val = f ρ := by
  unfold ext; rw [dif_pos ρ.isLt]

/-- The sum over every row. -/
theorem sum_ext (f : Fin 65536 → EReal) : ∑ n ∈ Finset.range 65536, ext f n = ∑ ρ : Fin 65536, f ρ := by
  rw [← Fin.sum_univ_eq_sum_range]
  exact Finset.sum_congr rfl fun ρ _ => ext_val f ρ

/-- A sum over `A` consecutive stretches of `B` naturals is the sum over the first `A * B` naturals. -/
theorem sum_fin_mul {M : Type*} [AddCommMonoid M] (B : ℕ) (f : ℕ → M) :
    ∀ A : ℕ, ∑ a : Fin A, ∑ b : Fin B, f (a.val * B + b.val) = ∑ n ∈ Finset.range (A * B), f n
  | 0 => by simp
  | A + 1 => by
    rw [Fin.sum_univ_castSucc, Nat.succ_mul, Finset.sum_range_add, ← sum_fin_mul B f A]
    congr 1
    exact Fin.sum_univ_eq_sum_range (fun b => f (A * B + b)) B

/-- The reference's order: sixteen by eight groups of 512 rows. -/
theorem sum_groups (f : ℕ → EReal) :
    ∑ b : Fin 16, ∑ c : Fin 8, ∑ h : Fin 512, f ((b.val * 8 + c.val) * 512 + h.val) = ∑ n ∈ Finset.range 65536, f n := by
  rw [sum_fin_mul 8 (fun g => ∑ h : Fin 512, f (g * 512 + h.val)) 16,
    ← Fin.sum_univ_eq_sum_range (fun g => ∑ h : Fin 512, f (g * 512 + h.val)) (16 * 8)]
  exact sum_fin_mul 512 f (16 * 8)

/-- The kernel's order: two sweeps of sixteen steps, each step a tile of 2048 rows. -/
theorem sum_tiles (f : ℕ → EReal) :
    ∑ c : Fin 2, ∑ k ∈ Finset.range 16, ∑ r : Fin 2048, f ((16 * c.val + k) * 2048 + r.val) = ∑ n ∈ Finset.range 65536, f n := by
  have h1 : ∀ c : Fin 2, ∑ k ∈ Finset.range 16, ∑ r : Fin 2048, f ((16 * c.val + k) * 2048 + r.val)
      = ∑ k : Fin 16, ∑ r : Fin 2048, f ((c.val * 16 + k.val) * 2048 + r.val) := fun c => by
    rw [← Fin.sum_univ_eq_sum_range (fun k => ∑ r : Fin 2048, f ((16 * c.val + k) * 2048 + r.val)) 16]
    exact Finset.sum_congr rfl fun k _ => Finset.sum_congr rfl fun r _ => by rw [Nat.mul_comm 16 c.val]
  rw [Finset.sum_congr rfl fun c _ => h1 c,
    sum_fin_mul 16 (fun t => ∑ r : Fin 2048, f (t * 2048 + r.val)) 2,
    ← Fin.sum_univ_eq_sum_range (fun t => ∑ r : Fin 2048, f (t * 2048 + r.val)) (2 * 16)]
  exact sum_fin_mul 2048 f (2 * 16)

/-- The total of the 2048 row norms of tile `t`: rows `2048·t … 2048·t + 2047`. -/
def tile (X Y : Arr) (t : ℕ) : EReal := ∑ r : Fin 2048, ext (rowSqrt X Y) (t * 2048 + r.val)

/-- Two sweeps of sixteen tile totals add up to the sum of all row norms. -/
theorem sum_sweeps (X Y : Arr) :
    ∑ c : Fin 2, ∑ k ∈ Finset.range 16, tile X Y (16 * c.val + k) = ∑ ρ : Fin 65536, rowSqrt X Y ρ :=
  (sum_tiles (ext (rowSqrt X Y))).trans (sum_ext _)

/-! ## On finite arrays the two row norms agree -/

/-- A finite sum of reals, summed as extended reals, is the real sum. -/
theorem coe_sum {ι : Type*} (s : Finset ι) (g : ι → ℝ) : ∑ i ∈ s, (g i : EReal) = ((∑ i ∈ s, g i : ℝ) : EReal) := by
  classical
  induction s using Finset.induction_on with
  | empty => simp
  | insert a s ha ih => rw [Finset.sum_insert ha, Finset.sum_insert ha, ih, EReal.coe_add]

/-- On arrays whose entries are all finite, every row's two norms are one number. -/
theorem rowPow_eq_rowSqrt (X Y : Arr) (hX : ∀ i, ∃ r : ℝ, X i = (r : EReal)) (hY : ∀ i, ∃ r : ℝ, Y i = (r : EReal))
    (ρ : Fin 65536) : rowPow X Y ρ = rowSqrt X Y ρ := by
  choose x hx using hX
  choose y hy using hY
  obtain ⟨e, he⟩ := ofBits_eps
  have hd : ∀ w, X (entry ρ w) - Y (entry ρ w) + eps = ((x (entry ρ w) - y (entry ρ w) + e : ℝ) : EReal) := fun w => by
    rw [hx, hy, eps, he, EReal.coe_add, EReal.coe_sub]
  have h1 : ∀ w, sqPow (X (entry ρ w)) (Y (entry ρ w))
      = (((x (entry ρ w) - y (entry ρ w) + e) * (x (entry ρ w) - y (entry ρ w) + e) : ℝ) : EReal) := fun w => by
    unfold sqPow; rw [hd, ofBits_two, abs_pow_two, EReal.coe_mul]
  have h2 : ∀ w, sq (X (entry ρ w)) (Y (entry ρ w))
      = (((x (entry ρ w) - y (entry ρ w) + e) * (x (entry ρ w) - y (entry ρ w) + e) : ℝ) : EReal) := fun w => by
    unfold sq; rw [hd, EReal.coe_mul]
  unfold rowPow rowSqrt
  rw [Finset.sum_congr rfl fun w _ => h1 w, Finset.sum_congr rfl fun w _ => h2 w, coe_sum, ofBits_zero, zero_add,
    ofBits_half]
  exact pow_half _ (Finset.sum_nonneg fun w _ => mul_self_nonneg _)

end Cert.RowNorm

end
-- ==== Proof.Pieces.lean ====
/-
  What one run of the body leaves behind, as values. The body keeps a one-entry running total in a scratch cell.
  At the first step of a sweep it stores zero there and then adds the step's tile total; at every later step it adds
  the tile total to what the step before left; at the last step of a sweep it also copies the total into every lane
  of the output block. Each statement below says that the contents found after the body are exactly the body's
  arithmetic applied to the input blocks and to the previous total.
-/
import proofs.«100115_j14310831030656_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces
open Cert.KernelIdeal Cert.KernelIdeal.Gen
variable {F : FTy → Type} [FloatOps F]

/-- The all-zero offset of a rank-two access. -/
theorem hz2 : (![0, 0] : Fin 2 → Nat) = fun _ => 0 := funext fun a => by fin_cases a <;> rfl
/-- The all-zero offset of a rank-three access. -/
theorem hz3 : (![0, 0, 0] : Fin 3 → Nat) = fun _ => 0 := funext fun a => by fin_cases a <;> rfl

/-- A middle step of a sweep: the running total becomes the previous total plus this step's tile total. -/
theorem scratch_B (c : Dev nD) (i : grid0.Coords) (arg2 : Memref sig .tc .vmem S1x2048x512 .f32) (harg2 : arg2.IsWhole) (arg3 : Memref sig .tc .vmem S1x2048x512 .f32) (harg3 : arg3.IsWhole) (arg4 : Memref sig .tc .vmem S1x1x128 .f32) (harg4 : arg4.IsWhole) (arg5 : Memref sig .tc .vmem S1x1 .f32) (harg5 : arg5.IsWhole) (hc0 : ¬cond0_0 i) (hc1 : ¬cond0_1 i)
    (x0 : Vec F S1x2048x512 .f32) (x1 : Vec F S1x2048x512 .f32) (xs0 : Vec F S1x1 .f32) :
    sout0_B_0 c i arg2 harg2 arg3 harg3 arg4 harg4 arg5 harg5 hc0 hc1 x0 x1 xs0 = k0_pay2 x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  rw [View.canon_unit_zero hz2]
  simp only [View.readAt_eq_ld, harg2.read_unread, harg3.read_unread, harg5.read_unread, View.ld_unit_zero (S := S1x2048x512) hz3, View.ld_unit_zero (S := S1x1) hz2]

/-- The first step of a sweep: the running total is reset to zero and then receives this step's tile total. -/
theorem scratch_A (c : Dev nD) (i : grid0.Coords) (arg2 : Memref sig .tc .vmem S1x2048x512 .f32) (harg2 : arg2.IsWhole) (arg3 : Memref sig .tc .vmem S1x2048x512 .f32) (harg3 : arg3.IsWhole) (arg4 : Memref sig .tc .vmem S1x1x128 .f32) (harg4 : arg4.IsWhole) (arg5 : Memref sig .tc .vmem S1x1 .f32) (harg5 : arg5.IsWhole) (hc0 : cond0_0 i) (hc1 : ¬cond0_1 i)
    (x0 : Vec F S1x2048x512 .f32) (x1 : Vec F S1x2048x512 .f32) :
    sout0_A_0 c i arg2 harg2 arg3 harg3 arg4 harg4 arg5 harg5 hc0 hc1 x0 x1 = k0_pay2 x0 x1 (k0_pay1 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S1x1) hz2, View.readCov_unit_zero (S := S1x1) _ hz2]
  simp only [View.readAt_eq_ld, harg2.read_unread, harg3.read_unread, View.ld_unit_zero (S := S1x2048x512) hz3]

/-- The last step of a sweep also updates the running total the same way as a middle step. -/
theorem scratch_C (c : Dev nD) (i : grid0.Coords) (arg2 : Memref sig .tc .vmem S1x2048x512 .f32) (harg2 : arg2.IsWhole) (arg3 : Memref sig .tc .vmem S1x2048x512 .f32) (harg3 : arg3.IsWhole) (arg4 : Memref sig .tc .vmem S1x1x128 .f32) (harg4 : arg4.IsWhole) (arg5 : Memref sig .tc .vmem S1x1 .f32) (harg5 : arg5.IsWhole) (hc0 : ¬cond0_0 i) (hc1 : cond0_1 i)
    (x0 : Vec F S1x2048x512 .f32) (x1 : Vec F S1x2048x512 .f32) (xs0 : Vec F S1x1 .f32) :
    sout0_C_0 c i arg2 harg2 arg3 harg3 arg4 harg4 arg5 harg5 hc0 hc1 x0 x1 xs0 = k0_pay2 x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz2]
  simp only [View.readAt_eq_ld, harg2.read_unread, harg3.read_unread, harg5.read_unread, View.ld_unit_zero (S := S1x2048x512) hz3, View.ld_unit_zero (S := S1x1) hz2]

/-- The last step of a sweep: the output block holds, in every lane, the total including this step's tile. -/
theorem out_C (c : Dev nD) (i : grid0.Coords) (arg2 : Memref sig .tc .vmem S1x2048x512 .f32) (harg2 : arg2.IsWhole) (arg3 : Memref sig .tc .vmem S1x2048x512 .f32) (harg3 : arg3.IsWhole) (arg4 : Memref sig .tc .vmem S1x1x128 .f32) (harg4 : arg4.IsWhole) (arg5 : Memref sig .tc .vmem S1x1 .f32) (harg5 : arg5.IsWhole) (hc0 : ¬cond0_0 i) (hc1 : cond0_1 i)
    (x0 : Vec F S1x2048x512 .f32) (x1 : Vec F S1x2048x512 .f32) (xs0 : Vec F S1x1 .f32) :
    out0_C_2 c i arg2 harg2 arg3 harg3 arg4 harg4 arg5 harg5 hc0 hc1 x0 x1 xs0 = k0_pay3 (k0_pay2 x0 x1 xs0) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz3, View.readCov_unit_zero (S := S1x1) _ hz2]
  simp only [View.readAt_eq_ld, harg2.read_unread, harg3.read_unread, harg5.read_unread, View.ld_unit_zero (S := S1x2048x512) hz3, View.ld_unit_zero (S := S1x1) hz2]

end Cert.KernelIdeal.Pieces
end
-- ==== Proof.Payload.lean ====
/-
  The body's arithmetic read at an index, over the extended reals. A step's tile total is the sum, over the tile's
  2048 rows, of the square root of the row's sum of squared offset differences; the running total is one entry; the
  output block repeats that entry in each of its 128 lanes.
-/
import proofs.«100115_j14310831030656_2_alg».proof.Proof.Gen.KernelIdeal.Skeleton
import proofs.«100115_j14310831030656_2_alg».proof.Proof.RowNorm
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.KernelIdeal.Payload
open Cert.KernelIdeal Cert.KernelIdeal.Gen

open Cert.RowNorm (sq)

/-- A sum along the lanes, read at row `k`. -/
theorem lane_sum (v : FVec Ideal S2048x512 .f32) (h : S2048x512.Reduces [1] S2048) (hφ : FKind.Formats .f32)
    (hacc : (0x00000000#32 : BitVec 32) = FKind.add.neutral .f32 hφ) (k : Fin 2048) :
    multiReduction (F := Ideal) .add [1] S2048 v 0x00000000#32 h hφ hacc (ix1 k) = ∑ j : Fin 512, v (ix2 k j) := by
  refine (Ideal.multiReduction_add_single v _ h hφ hacc (ix1 k)).trans ?_
  refine Finset.sum_congr rfl fun j _ => congrArg v (funext fun a => Fin.ext ?_)
  match a with
  | ⟨0, _⟩ => rfl
  | ⟨1, _⟩ => rfl

/-- A sum down the rows of a one-column vector. -/
theorem row_sum (u : FVec Ideal S2048x1 .f32) (h : S2048x1.Reduces [0] S1) (hφ : FKind.Formats .f32)
    (hacc : (0x00000000#32 : BitVec 32) = FKind.add.neutral .f32 hφ) :
    multiReduction (F := Ideal) .add [0] S1 u 0x00000000#32 h hφ hacc (ix1 (0 : Fin 1)) = ∑ k : Fin 2048, u (ix2 k (0 : Fin 1)) := by
  refine (Ideal.multiReduction_add_single u _ h hφ hacc (ix1 0)).trans ?_
  refine Finset.sum_congr rfl fun k _ => congrArg u (funext fun a => Fin.ext ?_)
  match a with
  | ⟨0, _⟩ => rfl
  | ⟨1, _⟩ => rfl

/-- A vector of 2048 entries laid out as a column. -/
theorem col_cast (w : FVec Ideal S2048 .f32) (h : S2048.ShapeCasts S2048x1) (k : Fin 2048) :
    shapeCast S2048x1 w h (ix2 k (0 : Fin 1)) = w (ix1 k) :=
  shapeCast_apply w h _ _ (by
    rw [Shape.rowMajor_val_two, Shape.rowMajor_val_one]
    show k.val = k.val * 1 + 0
    omega)

/-- A one-entry vector laid out as a one-by-one block. -/
theorem one_cast (z : FVec Ideal S1 .f32) (h : S1.ShapeCasts S1x1) :
    shapeCast S1x1 z h (ix2 (0 : Fin 1) (0 : Fin 1)) = z (ix1 (0 : Fin 1)) :=
  shapeCast_a_1a_apply z h 0 0

/-- The updated running total: the previous total plus the tile total of the two input blocks. -/
theorem pay2_apply (x0 x1 : Vec Ideal S1x2048x512 .f32) (acc : Vec Ideal S1x1 .f32) :
    k0_pay2 (F := Ideal) x0 x1 acc (ix2 (0 : Fin 1) (0 : Fin 1))
      = acc (ix2 (0 : Fin 1) (0 : Fin 1)) + ∑ k : Fin 2048, Ideal.sqrt (∑ j : Fin 512, sq (x0 (ix3 (0 : Fin 1) k j)) (x1 (ix3 (0 : Fin 1) k j))) := by
  unfold k0_pay2
  rw [shapeCast_self]
  refine congrArg (acc (ix2 (0 : Fin 1) (0 : Fin 1)) + ·) ?_
  refine (one_cast _ _).trans ?_
  refine (row_sum _ _ _ _).trans ?_
  refine Finset.sum_congr rfl fun k _ => ?_
  refine congrArg Ideal.sqrt ?_
  refine (col_cast _ _ k).trans ?_
  refine (lane_sum _ _ _ _ k).trans ?_
  refine Finset.sum_congr rfl fun j _ => ?_
  show (shapeCast S2048x512 x0 _ (ix2 k j) - shapeCast S2048x512 x1 _ (ix2 k j) + _) * (shapeCast S2048x512 x0 _ (ix2 k j) - shapeCast S2048x512 x1 _ (ix2 k j) + _) = _
  rw [shapeCast_1ab_ab_apply, shapeCast_1ab_ab_apply]
  rfl

/-- The reset value is the zero word. -/
theorem pay1_apply : k0_pay1 (F := Ideal) (ix2 (0 : Fin 1) (0 : Fin 1)) = Ideal.ofBits .f32 0x00000000#32 := by
  unfold k0_pay1
  rw [shapeCast_self]
  rfl

/-- Every lane of the output block is the running total. -/
theorem pay3_apply (v : Vec Ideal S1x1 .f32) (l : Fin 128) :
    k0_pay3 (F := Ideal) v (ix3 (0 : Fin 1) (0 : Fin 1) l) = v (ix2 (0 : Fin 1) (0 : Fin 1)) := by
  unfold k0_pay3
  rw [shapeCast_self]
  refine (shapeCast_ab_1ab_apply _ _ 0 0 l).trans ?_
  refine broadcastTo_apply v _ _ _ fun a => ?_
  match a with
  | ⟨0, _⟩ => rfl
  | ⟨1, _⟩ => rfl

end Cert.KernelIdeal.Payload
end
-- ==== Proof.Blocks.lean ====
/-
  What the two input blocks of a step hold. Each argument array is first read as two halves of 32768 rows; step
  `t` of the grid (sweep `t / 16`, step `t mod 16` within the sweep) stages rows `2048·(t mod 16) …` of half
  `t / 16`, which are rows `2048·t … 2048·t + 2047` of the array read as 65536 rows, because the re-reading keeps
  every entry at its row-major position.
-/
import proofs.«100115_j14310831030656_2_alg».proof.Proof.Gen.KernelIdeal.Frame
import Idealize.ShloMosaic.Lib.Pipeline.Value
import Idealize.ShloMosaic.Lib.Tactic
import proofs.«100115_j14310831030656_2_alg».proof.Proof.RowNorm
import Idealize.ShloMosaic.Lib.ValueIdx
import Idealize.ShloMosaic.Lib.StableHlo.Run

noncomputable section

open Idealize.ShloMosaic Idealize.ShloMosaic.TcCoe Idealize.SL.Sem
open Idealize.ShloMosaic.Pipeline (Dat)

namespace Cert.KernelIdeal.Blocks
open Cert.KernelIdeal Cert.KernelIdeal.Gen Cert.RowNorm Idealize.ShloMosaic.ValueIdx
variable (m : (ℓ : Loc nD τ sig) → Buf (Elt Ideal) ℓ)

/-- The first argument as the region finds it: the argument array re-read as [2, 32768, 512]. -/
theorem V_v0 (c : Dev nD) : (V m c main_v0 : S2x32768x512.Idx → EReal)
    = shapeCast S2x32768x512 (m ((c : Thread nD τ).loc main_arg0)) shapeCasts_S16x8x512x512_S2x32768x512 := by
  show StableHlo.after hostOps0 (fun b => m (c, b)) (Proc.devRef .tc main_v0) = _
  after_results
  rfl

/-- Where the first input's block sits at each grid point, decided over the grid. -/
theorem idx_facts : ∀ t : Fin cfg0.N, win0_0.index t (0 : Fin 3) = t.val / 16 ∧ win0_0.index t (1 : Fin 3) = t.val % 16 ∧ win0_0.index t (2 : Fin 3) = 0 :=
  (by decide +kernel : ∀ t : Fin grid0.N, win0_0.index t (0 : Fin 3) = t.val / 16 ∧ win0_0.index t (1 : Fin 3) = t.val % 16 ∧ win0_0.index t (2 : Fin 3) = 0)

/-- Entry `(r, j)` of the first input's block at step `t` is entry `j` of row `2048·t + r` of the first argument. -/
theorem iblk0_apply (c : Dev nD) (t : Fin cfg0.N) (r : Fin 2048) (j : Fin 512) (hρ : t.val * 2048 + r.val < 65536) :
    (iblk m c 0 t : Vec Ideal S1x2048x512 .f32) (ix3 (0 : Fin 1) r j) = m ((c : Thread nD τ).loc main_arg0) (entry ⟨t.val * 2048 + r.val, hρ⟩ j) := by
  unfold iblk
  rw [View.read_apply]
  show V m c main_v0 _ = _
  rw [V_v0]
  refine shapeCast_apply _ _ _ _ ?_
  show (S16x8x512x512.rowMajor (entry ⟨t.val * 2048 + r.val, hρ⟩ j)).val = (S2x32768x512.rowMajor (((cfg0.win 0).blk t).view.emb (ix3 (0 : Fin 1) r j))).val
  rw [Shape.rowMajor_val_four, Shape.rowMajor_val_three]
  show (((t.val * 2048 + r.val) / 4096 * 8 + (t.val * 2048 + r.val) / 512 % 8) * 512 + (t.val * 2048 + r.val) % 512) * 512 + j.val
    = ((win0_0.index t (0 : Fin 3) * 1 + 1 * 0) * 32768 + (win0_0.index t (1 : Fin 3) * 2048 + 1 * r.val)) * 512 + (win0_0.index t (2 : Fin 3) * 512 + 1 * j.val)
  obtain ⟨e0, e1, e2⟩ := idx_facts t
  rw [e0, e1, e2]
  have hr := r.isLt
  have hN : t.val < 32 := lt_of_lt_of_eq t.isLt (show cfg0.N = 32 from N_0)
  omega

/-- The second argument as the region finds it: the argument array re-read as [2, 32768, 512]. -/
theorem V_v1 (c : Dev nD) : (V m c main_v1 : S2x32768x512.Idx → EReal)
    = shapeCast S2x32768x512 (m ((c : Thread nD τ).loc main_arg1)) shapeCasts_S16x8x512x512_S2x32768x512 := by
  show StableHlo.after hostOps0 (fun b => m (c, b)) (Proc.devRef .tc main_v1) = _
  after_results
  rfl

/-- Where the second input's block sits at each grid point, decided over the grid. -/
theorem idx_facts1 : ∀ t : Fin cfg0.N, win0_1.index t (0 : Fin 3) = t.val / 16 ∧ win0_1.index t (1 : Fin 3) = t.val % 16 ∧ win0_1.index t (2 : Fin 3) = 0 :=
  (by decide +kernel : ∀ t : Fin grid0.N, win0_1.index t (0 : Fin 3) = t.val / 16 ∧ win0_1.index t (1 : Fin 3) = t.val % 16 ∧ win0_1.index t (2 : Fin 3) = 0)

/-- Entry `(r, j)` of the second input's block at step `t` is entry `j` of row `2048·t + r` of the second argument. -/
theorem iblk1_apply (c : Dev nD) (t : Fin cfg0.N) (r : Fin 2048) (j : Fin 512) (hρ : t.val * 2048 + r.val < 65536) :
    (iblk m c 1 t : Vec Ideal S1x2048x512 .f32) (ix3 (0 : Fin 1) r j) = m ((c : Thread nD τ).loc main_arg1) (entry ⟨t.val * 2048 + r.val, hρ⟩ j) := by
  unfold iblk
  rw [View.read_apply]
  show V m c main_v1 _ = _
  rw [V_v1]
  refine shapeCast_apply _ _ _ _ ?_
  show (S16x8x512x512.rowMajor (entry ⟨t.val * 2048 + r.val, hρ⟩ j)).val = (S2x32768x512.rowMajor (((cfg0.win 1).blk t).view.emb (ix3 (0 : Fin 1) r j))).val
  rw [Shape.rowMajor_val_four, Shape.rowMajor_val_three]
  show (((t.val * 2048 + r.val) / 4096 * 8 + (t.val * 2048 + r.val) / 512 % 8) * 512 + (t.val * 2048 + r.val) % 512) * 512 + j.val
    = ((win0_1.index t (0 : Fin 3) * 1 + 1 * 0) * 32768 + (win0_1.index t (1 : Fin 3) * 2048 + 1 * r.val)) * 512 + (win0_1.index t (2 : Fin 3) * 512 + 1 * j.val)
  obtain ⟨e0, e1, e2⟩ := idx_facts1 t
  rw [e0, e1, e2]
  have hr := r.isLt
  have hN : t.val < 32 := lt_of_lt_of_eq t.isLt (show cfg0.N = 32 from N_0)
  omega

end Cert.KernelIdeal.Blocks
end
-- ==== Proof.Accum.lean ====
/-
  The running total across a sweep. After step `n` of the grid the one-entry scratch cell holds the sum of the tile
  totals of the steps of the current sweep up to `n`: steps `16·(n / 16) … n`. The first step of a sweep starts
  from the zero word; each later step adds its tile total to what the step before left. At the last step of a sweep
  every lane of the output block holds the sweep's sixteen tile totals added up.
-/
import proofs.«100115_j14310831030656_2_alg».proof.Proof.Gen.KernelIdeal.Frame
import Idealize.ShloMosaic.Lib.Pipeline.Value
import Idealize.ShloMosaic.Lib.Tactic
import proofs.«100115_j14310831030656_2_alg».proof.Proof.RowNorm
import proofs.«100115_j14310831030656_2_alg».proof.Proof.Pieces
import proofs.«100115_j14310831030656_2_alg».proof.Proof.Payload
import proofs.«100115_j14310831030656_2_alg».proof.Proof.Blocks
import Idealize.ShloMosaic.Lib.ValueIdx

noncomputable section

open Idealize.ShloMosaic Idealize.ShloMosaic.TcCoe Idealize.SL.Sem
open Idealize.ShloMosaic.Pipeline (Dat)

namespace Cert.KernelIdeal.Accum
open Cert.KernelIdeal Cert.KernelIdeal.Gen Cert.RowNorm Idealize.ShloMosaic.ValueIdx
open Cert.KernelIdeal.Pieces Cert.KernelIdeal.Payload Cert.KernelIdeal.Blocks
variable (m : (ℓ : Loc nD τ sig) → Buf (Elt Ideal) ℓ)

/-- The two argument arrays, as launched. -/
abbrev argX (c : Dev nD) : Arr := m ((c : Thread nD τ).loc main_arg0)
abbrev argY (c : Dev nD) : Arr := m ((c : Thread nD τ).loc main_arg1)

/-- The tile total the body computes from the two input blocks of step `t` is the total of the row norms of rows
    `2048·t … 2048·t + 2047` of the arguments. -/
theorem tile_eq (c : Dev nD) (t : Fin cfg0.N) :
    ∑ k : Fin 2048, Ideal.sqrt (∑ j : Fin 512, sq ((iblk m c 0 t : Vec Ideal S1x2048x512 .f32) (ix3 (0 : Fin 1) k j))
        ((iblk m c 1 t : Vec Ideal S1x2048x512 .f32) (ix3 (0 : Fin 1) k j)))
      = tile (argX m c) (argY m c) t.val := by
  have hN : t.val < 32 := lt_of_lt_of_eq t.isLt (show cfg0.N = 32 from N_0)
  unfold tile
  refine Finset.sum_congr rfl fun k _ => ?_
  have hρ : t.val * 2048 + k.val < 65536 := by have := k.isLt; omega
  unfold ext
  rw [dif_pos hρ]
  unfold rowSqrt
  refine congrArg Ideal.sqrt (Finset.sum_congr rfl fun j _ => ?_)
  rw [iblk0_apply m c t k j hρ, iblk1_apply m c t k j hρ]

/-- One step: the new total is the old total plus the step's tile total. -/
theorem step_val (c : Dev nD) (t : Fin cfg0.N) (acc : Vec Ideal S1x1 .f32) :
    k0_pay2 (F := Ideal) (iblk m c 0 t) (iblk m c 1 t) acc (ix2 (0 : Fin 1) (0 : Fin 1))
      = acc (ix2 (0 : Fin 1) (0 : Fin 1)) + tile (argX m c) (argY m c) t.val :=
  (pay2_apply (iblk m c 0 t) (iblk m c 1 t) acc).trans (congrArg (acc (ix2 (0 : Fin 1) (0 : Fin 1)) + ·) (tile_eq m c t))

/-- THE RUNNING TOTAL after step `n`: the tile totals of the current sweep's steps up to `n`. -/
theorem acc_eq (c : Dev nD) (n : ℕ) : ∀ h : n < cfg0.N,
    (outsAt0 m c n h).2 (ix2 (0 : Fin 1) (0 : Fin 1))
      = ∑ k ∈ Finset.range (n % 16 + 1), tile (argX m c) (argY m c) (16 * (n / 16) + k) := by
  induction n using Nat.strong_induction_on with
  | _ n ih =>
    intro h
    by_cases h0 : n % 16 = 0
    · have h1 : ¬n % 16 = 15 := by omega
      refine (congrFun (congrArg Prod.snd (outsAt0_A m c ⟨n, h⟩ h0 h1)) _).trans ?_
      dsimp only
      refine (congrFun (scratch_A (F := Ideal) c (grid0.coords ⟨n, h⟩) (ms0_0 ⟨n, h⟩) (hs0_0 ⟨n, h⟩) (ms0_1 ⟨n, h⟩) (hs0_1 ⟨n, h⟩)
        (ms0_2 ⟨n, h⟩) (hs0_2 ⟨n, h⟩) scM0_0 (Memref.isWhole_whole _) _ _ (iblk m c 0 ⟨n, h⟩) (iblk m c 1 ⟨n, h⟩)) _).trans ?_
      refine (step_val m c ⟨n, h⟩ _).trans ?_
      rw [pay1_apply, ofBits_zero, zero_add, h0, Finset.sum_range_one]
      show tile (argX m c) (argY m c) n = tile (argX m c) (argY m c) (16 * (n / 16) + 0)
      congr 1
      omega
    · have hpos : n - 1 < n := by omega
      have hlt : n - 1 < cfg0.N := lt_trans hpos h
      have e1 : (n - 1) % 16 + 1 = n % 16 := by omega
      have e2 : (n - 1) / 16 = n / 16 := by omega
      have fin : (outsAt0 m c (n - 1) hlt).2 (ix2 (0 : Fin 1) (0 : Fin 1)) + tile (argX m c) (argY m c) n
          = ∑ k ∈ Finset.range (n % 16 + 1), tile (argX m c) (argY m c) (16 * (n / 16) + k) := by
        rw [ih (n - 1) hpos hlt, e1, e2, Finset.sum_range_succ, Nat.div_add_mod]
      by_cases h1 : n % 16 = 15
      · refine (congrFun (congrArg Prod.snd (outsAt0_C m c ⟨n, h⟩ h0 h1)) _).trans ?_
        dsimp only
        refine (congrFun (scratch_C (F := Ideal) c (grid0.coords ⟨n, h⟩) (ms0_0 ⟨n, h⟩) (hs0_0 ⟨n, h⟩) (ms0_1 ⟨n, h⟩) (hs0_1 ⟨n, h⟩)
          (ms0_2 ⟨n, h⟩) (hs0_2 ⟨n, h⟩) scM0_0 (Memref.isWhole_whole _) _ _ (iblk m c 0 ⟨n, h⟩) (iblk m c 1 ⟨n, h⟩)
          (outsAt0 m c (n - 1) hlt).2) _).trans ?_
        exact (step_val m c ⟨n, h⟩ _).trans fin
      · refine (congrFun (congrArg Prod.snd (outsAt0_B m c ⟨n, h⟩ h0 h1)) _).trans ?_
        dsimp only
        refine (congrFun (scratch_B (F := Ideal) c (grid0.coords ⟨n, h⟩) (ms0_0 ⟨n, h⟩) (hs0_0 ⟨n, h⟩) (ms0_1 ⟨n, h⟩) (hs0_1 ⟨n, h⟩)
          (ms0_2 ⟨n, h⟩) (hs0_2 ⟨n, h⟩) scM0_0 (Memref.isWhole_whole _) _ _ (iblk m c 0 ⟨n, h⟩) (iblk m c 1 ⟨n, h⟩)
          (outsAt0 m c (n - 1) hlt).2) _).trans ?_
        exact (step_val m c ⟨n, h⟩ _).trans fin

/-- At the last step of a sweep every lane of the output block is the sweep's total. -/
theorem out_eq (c : Dev nD) (t : Fin cfg0.N) (h1 : t.val % 16 = 15) (l : Fin 128) :
    (outsAt0 m c t.val t.isLt).1 (ix3 (0 : Fin 1) (0 : Fin 1) l)
      = ∑ k ∈ Finset.range 16, tile (argX m c) (argY m c) (16 * (t.val / 16) + k) := by
  have h0 : ¬t.val % 16 = 0 := by omega
  have hlt : t.val - 1 < cfg0.N := lt_of_le_of_lt (Nat.sub_le _ _) t.isLt
  have e := outsAt0_C m c t h0 h1
  have e2 : (outsAt0 m c t.val t.isLt).2 (ix2 (0 : Fin 1) (0 : Fin 1))
      = k0_pay2 (F := Ideal) (iblk m c 0 t) (iblk m c 1 t) (outsAt0 m c (t.val - 1) hlt).2 (ix2 (0 : Fin 1) (0 : Fin 1)) := by
    refine (congrFun (congrArg Prod.snd e) _).trans ?_
    dsimp only
    exact congrFun (scratch_C (F := Ideal) c (grid0.coords t) (ms0_0 t) (hs0_0 t) (ms0_1 t) (hs0_1 t)
      (ms0_2 t) (hs0_2 t) scM0_0 (Memref.isWhole_whole _) _ _ (iblk m c 0 t) (iblk m c 1 t)
      (outsAt0 m c (t.val - 1) hlt).2) _
  have e1 : (outsAt0 m c t.val t.isLt).1 (ix3 (0 : Fin 1) (0 : Fin 1) l)
      = k0_pay2 (F := Ideal) (iblk m c 0 t) (iblk m c 1 t) (outsAt0 m c (t.val - 1) hlt).2 (ix2 (0 : Fin 1) (0 : Fin 1)) := by
    refine (congrFun (congrArg Prod.fst e) _).trans ?_
    dsimp only
    refine (congrFun (out_C (F := Ideal) c (grid0.coords t) (ms0_0 t) (hs0_0 t) (ms0_1 t) (hs0_1 t)
      (ms0_2 t) (hs0_2 t) scM0_0 (Memref.isWhole_whole _) _ _ (iblk m c 0 t) (iblk m c 1 t)
      (outsAt0 m c (t.val - 1) hlt).2) _).trans ?_
    exact pay3_apply _ l
  rw [e1, ← e2, acc_eq m c t.val t.isLt, h1]

end Cert.KernelIdeal.Accum
end
-- ==== Proof.Result.lean ====
/-
  The kernel's result. The output array [2, 1, 128] is written back once per sweep, after the sweep's last step:
  block `c` holds, in every lane, the sum of sweep `c`'s sixteen tile totals. The lines after the launch take lane
  0 of both blocks and add the two numbers to the zero word. So the result is the zero word plus the sum of the norms
  of all 65536 rows, and the two argument arrays end as they began.
-/
import proofs.«100115_j14310831030656_2_alg».proof.Proof.Gen.KernelIdeal.Frame
import Idealize.ShloMosaic.Lib.Pipeline.Value
import Idealize.ShloMosaic.Lib.Tactic
import proofs.«100115_j14310831030656_2_alg».proof.Proof.RowNorm
import proofs.«100115_j14310831030656_2_alg».proof.Proof.Accum
import Idealize.ShloMosaic.Lib.ValueIdx
import Idealize.ShloMosaic.Lib.StableHlo.Run
import Idealize.ShloMosaic.PureOps.Ideal.Laws

noncomputable section

open Idealize.ShloMosaic Idealize.ShloMosaic.TcCoe Idealize.SL.Sem
open Idealize.ShloMosaic.Pipeline (Dat)

namespace Cert.KernelIdeal.Result
open Cert.KernelIdeal Cert.KernelIdeal.Gen Cert.RowNorm Idealize.ShloMosaic.ValueIdx
open Cert.KernelIdeal.Accum
variable (m : (ℓ : Loc nD τ sig) → Buf (Elt Ideal) ℓ) (ρ : Dev nD → PrngReg)

/-- What the output array ends holding: at `(c, 0, l)` the total of sweep `c`. -/
def sweepTotals (X Y : Arr) : S2x1x128.Idx → EReal :=
  fun i => ∑ k ∈ Finset.range 16, tile X Y (16 * (i 0).val + k)

/-- Where the output's block sits at each grid point, decided over the grid. -/
theorem idx_out : ∀ t : Fin cfg0.N, win0_2.index t (0 : Fin 3) = t.val / 16 ∧ win0_2.index t (1 : Fin 3) = 0 ∧ win0_2.index t (2 : Fin 3) = 0 :=
  (by decide +kernel : ∀ t : Fin grid0.N, win0_2.index t (0 : Fin 3) = t.val / 16 ∧ win0_2.index t (1 : Fin 3) = 0 ∧ win0_2.index t (2 : Fin 3) = 0)

/-- What a sweep's last step writes back is its block of `sweepTotals`. -/
theorem flushed_eq (c : Dev nD) (t : Fin cfg0.N) (hf : (cfg0.win 2).flush t = true) :
    (dats m 0 c).flushed 2 t = ((cfg0.win 2).blk t).view.read (Elt Ideal) (sweepTotals (argX m c) (argY m c)) := by
  have h1 : t.val % 16 = 15 := (flush0_2 t).mp hf
  show (cfg0.win 2).cut (grid0.coords t) ((dats m 0 c).after 2 t) = _
  rw [after0_2]
  have key : ∀ y : S1x1x128.Idx, (outsAt0 m c t.val t.isLt).1 y
      = sweepTotals (argX m c) (argY m c) (((cfg0.win 2).blk t).view.emb y) := fun y => by
    have hy0 : (y 0).val < 1 := (y 0).isLt
    have hy1 : (y 1).val < 1 := (y 1).isLt
    obtain ⟨l, hy⟩ : ∃ l : Fin 128, y = ix3 (0 : Fin 1) (0 : Fin 1) l := ⟨y 2, by
      funext a
      apply Fin.ext
      match a with
      | ⟨0, _⟩ => show (y 0).val = 0; omega
      | ⟨1, _⟩ => show (y 1).val = 0; omega
      | ⟨2, _⟩ => rfl⟩
    have he : ((((cfg0.win 2).blk t).view.emb y) 0).val = t.val / 16 := by
      show win0_2.index t (0 : Fin 3) * 1 + 1 * (y 0).val = _
      rw [(idx_out t).1]; omega
    have hG : sweepTotals (argX m c) (argY m c) (((cfg0.win 2).blk t).view.emb y)
        = ∑ k ∈ Finset.range 16, tile (argX m c) (argY m c) (16 * (t.val / 16) + k) := by
      unfold sweepTotals
      rw [he]
    rw [hG, hy]
    exact out_eq m c t h1 l
  funext y
  exact key y

/-- An index of the output array is in point `t`'s block iff each coordinate is in the block's range. -/
theorem mem_blk (t : Fin cfg0.N) (i : S2x1x128.Idx) :
    i ∈ ((cfg0.win 2).blk t).view.set ↔ ∀ a : Fin 3, win0_2.index t a * S1x1x128.size a ≤ (i a).val ∧ (i a).val < win0_2.index t a * S1x1x128.size a + S1x1x128.size a := by
  show i ∈ ((View.whole main_v2).slice (win0_2.rect t)).set ↔ _
  rw [View.set_slice_whole, Rect.mem_set_unit]
  exact Iff.rfl

/-- Every index of the output array is written back by the last step of its sweep. -/
theorem cover (i : S2x1x128.Idx) : ∃ t : Fin cfg0.N, (cfg0.win 2).flush t = true ∧ i ∈ ((cfg0.win 2).blk t).view.set := by
  have hi0 : (i 0).val < 2 := (i 0).isLt
  have hi1 : (i 1).val < 1 := (i 1).isLt
  have hi2 : (i 2).val < 128 := (i 2).isLt
  have hN : cfg0.N = 32 := N_0
  have hlt : 16 * (i 0).val + 15 < cfg0.N := by rw [hN]; omega
  refine ⟨⟨16 * (i 0).val + 15, hlt⟩, (flush0_2 _).mpr (by show (16 * (i 0).val + 15) % 16 = 15; omega), ?_⟩
  rw [mem_blk]
  obtain ⟨e0, e1, e2⟩ := idx_out ⟨16 * (i 0).val + 15, hlt⟩
  have e0' : win0_2.index ⟨16 * (i 0).val + 15, hlt⟩ (0 : Fin 3) = (i 0).val := by rw [e0]; show (16 * (i 0).val + 15) / 16 = _; omega
  intro a
  match a with
  | ⟨0, _⟩ => show win0_2.index _ (0 : Fin 3) * 1 ≤ (i 0).val ∧ (i 0).val < win0_2.index _ (0 : Fin 3) * 1 + 1; rw [e0']; omega
  | ⟨1, _⟩ => show win0_2.index _ (1 : Fin 3) * 1 ≤ (i 1).val ∧ (i 1).val < win0_2.index _ (1 : Fin 3) * 1 + 1; rw [e1]; omega
  | ⟨2, _⟩ => show win0_2.index _ (2 : Fin 3) * 128 ≤ (i 2).val ∧ (i 2).val < win0_2.index _ (2 : Fin 3) * 128 + 128; rw [e2]; omega

/-- The output array after the run. -/
theorem final (c : Dev nD) : (dats m 0 c).arrAt 2 cfg0.N = sweepTotals (argX m c) (argY m c) :=
  (dats m 0 c).arrAt_eq_of_cover 2 (sweepTotals (argX m c) (argY m c)) (fun t hf => flushed_eq m c t hf) cover

/-- The lines after the launch, as one function of the output array: lane 0 of each block, added to the zero word. -/
def tailOf (A : S2x1x128.Idx → EReal) : S_.Idx → EReal :=
  Host.reduceAdd (F := Ideal) (shapeCast S2 (extractStridedSlice S2x1x1 ![0, 0, 0] A slices_S2x1x128_S2x1x1_0_0_0) shapeCasts_S2x1x1_S2)
    (constant (F := Ideal) S_ .f32 0x00000000#32) reducesTo_S2_S_d0 h_S_

/-- A sum over the indices of a vector of two entries is the sum over its two coordinates. -/
theorem sum_idx1 (f : S2.Idx → EReal) : ∑ j, f j = ∑ a : Fin 2, f (ix1 a) := by
  let e : S2.Idx ≃ Fin 2 := ⟨fun j => j 0, fun a => ix1 a, fun j => (eq_ix1 j).symm, fun _ => rfl⟩
  rw [← Equiv.sum_comp e.symm f]
  rfl

theorem tailOf_apply (A : S2x1x128.Idx → EReal) (i : S_.Idx) :
    tailOf A i = Ideal.ofBits .f32 0x00000000#32 + ∑ c : Fin 2, A (ix3 c (0 : Fin 1) (0 : Fin 128)) := by
  unfold tailOf
  simp only [Host.reduceAdd, Ideal.hostReduceAdd_def]
  rw [Ideal.hostReduceAdd_total reducesTo_S2_S_d0 (fun b => b.elim0), sum_idx1]
  refine congrArg₂ (· + ·) rfl (Finset.sum_congr rfl fun k _ => ?_)
  refine (shapeCast_apply _ _ _ (ix3 k (0 : Fin 1) (0 : Fin 1)) ?_).trans ?_
  · rw [Shape.rowMajor_val_three, Shape.rowMajor_val_one]
    show (k.val * 1 + 0) * 1 + 0 = k.val
    omega
  · refine extractStridedSlice_apply _ A _ _ (ix3 k (0 : Fin 1) (0 : Fin 128)) fun a => ?_
    match a with
    | ⟨0, _⟩ => show k.val = 0 + k.val; omega
    | ⟨1, _⟩ => rfl
    | ⟨2, _⟩ => rfl

/-- THE RESULT: the zero word plus the sum of all row norms. -/
theorem result_eq (c : Dev nD) :
    Pipeline.afterTail₀ cfgs (dats m) 0 (V0 m) [hostOps1] c main_v5
      = fun _ => Ideal.ofBits .f32 0x00000000#32 + ∑ r : Fin 65536, rowSqrt (argX m c) (argY m c) r := by
  have hA : Pipeline.withArrays (cfgs 0).spec c (V0 m c) (fun w => (dats m 0 c).arrAt w (cfgs 0).N) (Proc.devRef .tc main_v2)
      = sweepTotals (argX m c) (argY m c) :=
    (Pipeline.withArrays_arr spec0 launch0.win.arr_inj c _ _ 2).trans (final m c)
  unfold Pipeline.afterTail₀
  show StableHlo.after hostOps1 _ (Proc.devRef .tc main_v5) = _
  after_results
  show tailOf (Pipeline.withArrays (cfgs 0).spec c (V0 m c) (fun w => (dats m 0 c).arrAt w (cfgs 0).N) (Proc.devRef .tc main_v2)) = _
  rw [hA]
  funext i
  rw [tailOf_apply, ← sum_sweeps]
  rfl

/-- The kernel's run, read: its result at the zero word plus the sum of all row norms, its arguments unchanged. -/
theorem run : θ_run defs (onTc (τ := τ) (main (F := Ideal))) ⟨m, fun _ => 0, ρ⟩ fun r => ∀ c : Dev nD,
      r.2.mem ((c.tc : Thread nD τ).loc main_v5)
        = (fun _ => Ideal.ofBits .f32 0x00000000#32 + ∑ r : Fin 65536, rowSqrt (argX m c) (argY m c) r)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v5 (Pipeline.mem_restRefs_of main_v5 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Result
end
-- ==== Proof.RefValue.lean ====
/-
  The reference read at its one result: the zero word plus, over the sixteen by eight groups, the zero word plus,
  over a group's 512 rows, the row's norm written with powers — the power one half of the sum, started from the zero
  word, of the powers two of the absolute offset differences along the row. Row `h` of group `(b, c)` is row
  `(8·b + c)·512 + h` of the array read as 65536 rows.
-/
import proofs.«100115_j14310831030656_2_alg».proof.Proof.Gen.ReferenceIdeal.Read
import proofs.«100115_j14310831030656_2_alg».proof.Proof.RowNorm
import Idealize.ShloMosaic.Lib.ValueIdx

noncomputable section

open Idealize.ShloMosaic Idealize.ShloMosaic.ValueIdx

namespace Cert.ReferenceIdeal.RefValue
open Cert.ReferenceIdeal Cert.ReferenceIdeal.Read Cert.RowNorm

/-- The row index of row `h` of group `(b, c)`. -/
def rowOf (b : Fin 16) (c : Fin 8) (h : Fin 512) : Fin 65536 :=
  ⟨(b.val * 8 + c.val) * 512 + h.val, by have := b.isLt; have := c.isLt; have := h.isLt; omega⟩

/-- Entry `w` of that row is entry `(b, c, h, w)` of the array. -/
theorem entry_rowOf (b : Fin 16) (c : Fin 8) (h : Fin 512) (w : Fin 512) :
    entry (rowOf b c h) w = idx_main_v6 (idx_main_v9 (ix2 b c) h) w := by
  have hb := b.isLt; have hc := c.isLt; have hh := h.isLt
  funext a
  apply Fin.ext
  match a with
  | ⟨0, _⟩ => show ((b.val * 8 + c.val) * 512 + h.val) / 4096 = b.val; omega
  | ⟨1, _⟩ => show ((b.val * 8 + c.val) * 512 + h.val) / 512 % 8 = c.val; omega
  | ⟨2, _⟩ => show ((b.val * 8 + c.val) * 512 + h.val) % 512 = h.val; omega
  | ⟨3, _⟩ => rfl

/-- One row's norm, as the reference computes it. -/
theorem row_eq (X Y : Arr) (b : Fin 16) (c : Fin 8) (h : Fin 512) :
    val_main_v8 (F := Ideal) X Y (idx_main_v9 (ix2 b c) h) = rowPow X Y (rowOf b c h) := by
  rw [val_main_v8_apply, val_main_v6_apply]
  unfold rowPow
  refine congrArg₂ Ideal.pow (congrArg₂ (· + ·) rfl (Finset.sum_congr rfl fun w _ => ?_)) rfl
  rw [entry_rowOf]
  rfl

/-- The reference's result is the zero word plus the sum of all row norms. -/
theorem result_eq (X Y : Arr) (i : S_.Idx) :
    val_main_v10 (F := Ideal) X Y i = Ideal.ofBits .f32 0x00000000#32 + ∑ ρ : Fin 65536, rowPow X Y ρ := by
  rw [val_main_v10_apply]
  refine congrArg₂ (· + ·) rfl ?_
  rw [sum_idx2, ← sum_ext, ← sum_groups]
  refine Finset.sum_congr rfl fun b _ => Finset.sum_congr rfl fun c _ => ?_
  rw [val_main_v9_apply]
  show Ideal.ofBits .f32 0x00000000#32 + _ = _
  rw [ofBits_zero, zero_add]
  refine Finset.sum_congr rfl fun h _ => ?_
  rw [row_eq]
  exact (ext_val (rowPow X Y) (rowOf b c h)).symm

end Cert.ReferenceIdeal.RefValue
end
-- ==== Proof.Finite.lean ====
/-
  From the precondition to finiteness. The precondition says that, in each argument, every entry's absolute value
  is below `+∞`. On the extended reals that excludes exactly `+∞` and `-∞`: every entry is a real number.
-/
import proofs.«100115_j14310831030656_2_alg».proof.Defs
import Idealize.ShloMosaic.Lib.ReduceAll
import Idealize.ShloMosaic.Lib.Affine
import Idealize.ShloMosaic.Lib.ValueIdx
import Idealize.ShloMosaic.PureOps.Ideal.Laws

noncomputable section

open Idealize.ShloMosaic

namespace Cert.Finite

instance : Subsingleton Cert.Pre_finite_inputs.S_.Idx := ⟨fun a b => funext fun d => d.elim0⟩

/-- The word `0x7F800000` denotes `+∞`. -/
theorem ofBits_inf : Ideal.ofBits .f32 0x7F800000#32 = (⊤ : EReal) := by
  simp [Ideal.ofBits, Ideal.ieee]

/-- An extended real whose absolute value is below `+∞` is a real number. -/
theorem real_of_abs_lt (x : EReal)
    (h : FloatOps.cmpf (F := Ideal) (φ := .f32) .olt (FloatOps.hostAbsf (F := Ideal) (φ := .f32) x) (FloatOps.ofBits (F := Ideal) .f32 0x7F800000#32) = 1#1) :
    ∃ r : ℝ, x = (r : EReal) := by
  have h' : Ideal.cmp .olt (max x (-x)) (Ideal.ofBits .f32 0x7F800000#32) = 1#1 := h
  rw [ofBits_inf] at h'
  induction x using EReal.rec with
  | bot => exact absurd h' (by simp [Ideal.cmp])
  | top => exact absurd h' (by simp [Ideal.cmp])
  | coe r => exact ⟨r, rfl⟩

/-- Under the precondition both arrays hold real numbers only. -/
theorem finite_of_pre [Cert.Pre_finite_inputs.Facts] (x0 x1 : FVec Ideal Cert.Pre_finite_inputs.S16x8x512x512 .f32)
    (h : Cert.Pre_finite_inputs.fn (F := Ideal) x0 x1 = fun _ => 1#1) :
    (∀ i, ∃ r : ℝ, x0 i = (r : EReal)) ∧ (∀ i, ∃ r : ℝ, x1 i = (r : EReal)) := by
  have h0 := congrFun h ValueIdx.ix0
  dsimp only [Cert.Pre_finite_inputs.fn] at h0
  obtain ⟨ha, hb⟩ := IntOp.andi_eq_one.1 h0
  exact ⟨fun i => real_of_abs_lt (x0 i) (Host.reduce_andi_all _ _ _ _ _ ha i),
    fun i => real_of_abs_lt (x1 i) (Host.reduce_andi_all _ _ _ _ _ hb i)⟩

end Cert.Finite
end
-- ==== Proof.lean ====
/-
  The kernel sums, over all rows of `output - target + ε` (65536 rows of 512 entries), the row's Euclidean norm:
  each of two sweeps walks sixteen tiles of 2048 rows, keeps a running total of the tiles' totals, and writes the
  sweep's total out at its last step; two numbers are then added. A row's norm is the square root of the sum of the
  entries multiplied by themselves. The reference computes the same sum group by group, a row's norm being the power
  one half of the sum of the powers two of the entries' absolute values.

  Over the extended reals the two agree on finite arguments, and finiteness is what the precondition gives:
  for a real `d`, `|d| ^ 2 = d · d`; a finite sum of such squares is a real `s ≥ 0`, and `s ^ (1/2) = √s`;
  addition of extended reals is commutative and associative, so the order in which row norms are added — by
  tiles and sweeps, or by groups — does not matter. (At an infinite entry the two powers and the product would
  still agree, but the argument is made where it is needed only: on the reals.)

  The frames of the two kernel programs are the generated ones; the reference's frame is its run with the result
  dropped; the idealization rewrote nothing, so there is nothing to preserve.
-/
import proofs.«100115_j14310831030656_2_alg».proof.Defs
import proofs.«100115_j14310831030656_2_alg».proof.Proof.Gen.Kernel
import proofs.«100115_j14310831030656_2_alg».proof.Proof.Gen.Kernel.Frame
import proofs.«100115_j14310831030656_2_alg».proof.Proof.Gen.KernelIdeal
import proofs.«100115_j14310831030656_2_alg».proof.Proof.Gen.KernelIdeal.Frame
import proofs.«100115_j14310831030656_2_alg».proof.Proof.Gen.ReferenceIdeal
import proofs.«100115_j14310831030656_2_alg».proof.Proof.Gen.ReferenceIdeal.Run
import proofs.«100115_j14310831030656_2_alg».proof.Proof.Gen.ReferenceIdeal.Read
import proofs.«100115_j14310831030656_2_alg».proof.Proof.Gen.Pre_finite_inputs
import proofs.«100115_j14310831030656_2_alg».proof.Proof.RowNorm
import proofs.«100115_j14310831030656_2_alg».proof.Proof.Result
import proofs.«100115_j14310831030656_2_alg».proof.Proof.RefValue
import proofs.«100115_j14310831030656_2_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the zero word plus the sum of all row norms: the kernel with each norm a square root of a
    sum of products, the reference with each norm a power of a sum of powers; on the finite arguments the
    precondition allows, the two norms of every row are one number. -/
theorem algebraic : Cert.algebraic_KernelIdeal_ReferenceIdeal := by
  intro m ρ m' ρ' hpre hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, (hagree c).1, (hagree c).2]
  obtain ⟨hX, hY⟩ := Cert.Finite.finite_of_pre _ _ (hpre c)
  funext i
  rw [Cert.ReferenceIdeal.RefValue.result_eq]
  exact congrArg₂ (· + ·) rfl (Finset.sum_congr rfl fun r _ => Cert.RowNorm.rowPow_eq_rowSqrt _ _ hX hY r)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
